-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16384x8 : Shape := ⟨3, ![256, 16384, 8]⟩
abbrev S_ : Shape := ⟨0, ![]⟩

class Facts : Prop where
  bcast_S_S256x16384x8 : S_.BroadcastsInDim S256x16384x8 (![] : Fin 0 → Fin S256x16384x8.rank)
  reducesTo_S256x16384x8_S_d0_1_2 : S256x16384x8.ReducesTo [0, 1, 2] S_
  h_S_ : 0 < S_.numel

variable [Facts]

def fn {F : FTy → Type} [FloatOps F] (main_arg0 : FVec F S256x16384x8 .f32) (main_arg1 : FVec F S256x16384x8 .f32) : IVec S_ 1 :=
  let main_v0 : FVec F S256x16384x8 .f32 := Host.absf main_arg0
  let main_cst : FVec F S_ .f32 := constant S_ .f32 0x7F800000#32
  let main_v1 : FVec F S256x16384x8 .f32 := broadcastInDim S256x16384x8 ![] bcast_S_S256x16384x8 main_cst
  let main_v2 : IVec S256x16384x8 1 := cmpf .olt main_v0 main_v1
  let main_c : IVec S_ 1 := constantI S_ 1 1#1
  let main_v3 : IVec S_ 1 := (fun x v => Host.reduce IntOp.andi x v reducesTo_S256x16384x8_S_d0_1_2 h_S_) main_v2 main_c
  let main_v4 : FVec F S256x16384x8 .f32 := Host.absf main_arg1
  let main_cst_0 : FVec F S_ .f32 := constant S_ .f32 0x7F800000#32
  let main_v5 : FVec F S256x16384x8 .f32 := broadcastInDim S256x16384x8 ![] bcast_S_S256x16384x8 main_cst_0
  let main_v6 : IVec S256x16384x8 1 := cmpf .olt main_v4 main_v5
  let main_c_1 : IVec S_ 1 := constantI S_ 1 1#1
  let main_v7 : IVec S_ 1 := (fun x v => Host.reduce IntOp.andi x v reducesTo_S256x16384x8_S_d0_1_2 h_S_) main_v6 main_c_1
  let main_v8 : IVec S_ 1 := andi main_v3 main_v7
  main_v8
-- ==== Kernel.lean ====
abbrev S256x16384x8 : Shape := ⟨3, ![256, 16384, 8]⟩
abbrev S256 : Shape := ⟨1, ![256]⟩
abbrev S128x128x8 : Shape := ⟨3, ![128, 128, 8]⟩
abbrev S128 : Shape := ⟨1, ![128]⟩
abbrev S128x128x7 : Shape := ⟨3, ![128, 128, 7]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x16384x8, .f32⟩
  | .hbm, ⟨1, _⟩ => ⟨S256x16384x8, .f32⟩
  | .hbm, ⟨2, _⟩ => ⟨S256, .f32⟩
  | .local _ .vmem, ⟨0, _⟩ => ⟨S128x128x8, .f32⟩
  | .local _ .vmem, ⟨1, _⟩ => ⟨S128x128x8, .f32⟩
  | .local _ .vmem, ⟨2, _⟩ => ⟨S128x128x8, .f32⟩
  | .local _ .vmem, ⟨3, _⟩ => ⟨S128x128x8, .f32⟩
  | .local _ .vmem, ⟨4, _⟩ => ⟨S128, .f32⟩
  | .local _ .vmem, ⟨5, _⟩ => ⟨S128, .f32⟩
  | _, _ => ⟨S256x16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S128x128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S128_S128_0 : ∀ a, (![0] : Fin 1 → Nat) a + S128.size a ≤ S128.size a
  h_S128 : 0 < S128.numel
  inb_S128x128x8_S128x128x7_0_0_0 : ∀ a, (![0, 0, 0] : Fin 3 → Nat) a + S128x128x7.size a ≤ S128x128x8.size a
  h_S128x128x7 : 0 < S128x128x7.numel
  reduces_S128x128x7_S128x128 : S128x128x7.Reduces [2] S128x128
  reduces_S128x128_S128 : S128x128.Reduces [1] S128
  shapeCasts_S128_S128 : S128.ShapeCasts S128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x8.size a ≤ S256x16384x8.size a
  hwx0_0 : ∀ i : grid0.Coords, EltTy.bits .f32 = 32 ∨ (Rect.block (s := S256x16384x8) S128x128x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128x8.size a ≤ S256x16384x8.size a
  hwx0_1 : ∀ i : grid0.Coords, EltTy.bits .f32 = 32 ∨ (Rect.block (s := S256x16384x8) S128x128x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S256.size a
  hwx0_2 : ∀ i : grid0.Coords, EltTy.bits .f32 = 32 ∨ (Rect.block (s := S256) S128.size (cc0_transform_2 i) (hinb0_2 i)).WholeWords (EltTy.packing .f32)

variable [Facts₀]

abbrev win0_0 : Pipeline.Window sig grid0 :=
  Pipeline.Window.ofSpec (Memref.whole main_arg0) S128x128x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x16384x8 : Shape := ⟨3, ![256, 16384, 8]⟩
abbrev S256x16384x7 : Shape := ⟨3, ![256, 16384, 7]⟩
abbrev S_ : Shape := ⟨0, ![]⟩
abbrev S256 : Shape := ⟨1, ![256]⟩

abbrev nBuf : Space → Nat
  | .hbm => 8
  | .vmem => 0
  | .smem => 0
  | _ => 0

abbrev bufTy : (tb : Table) → Fin (tcTables nBuf tb) → BufTy
  | .hbm, ⟨0, _⟩ => ⟨S256x16384x8, .f32⟩
  | .hbm, ⟨1, _⟩ => ⟨S256x16384x8, .f32⟩
  | .hbm, ⟨2, _⟩ => ⟨S256x16384x7, .f32⟩
  | .hbm, ⟨3, _⟩ => ⟨S256x16384x7, .f32⟩
  | .hbm, ⟨4, _⟩ => ⟨S256x16384x7, .f32⟩
  | .hbm, ⟨5, _⟩ => ⟨S256x16384x7, .f32⟩
  | .hbm, ⟨6, _⟩ => ⟨S_, .f32⟩
  | .hbm, ⟨7, _⟩ => ⟨S256, .f32⟩
  | _, _ => ⟨S256x16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  slices_S256x16384x8_S256x16384x7_0_0_0 : S256x16384x8.Slices ![0, 0, 0] S256x16384x7
  reducesTo_S256x16384x7_S256_d1_2 : S256x16384x7.ReducesTo [1, 2] S256
  h_S_ : 0 < S_.numel

variable [Facts₀]

class Facts : Prop extends Facts₀ where

variable [Facts]
-- ==== Proof.PointValue.lean ====
/-
  What one grid point leaves in the output's staging buffer, as a value.

  The kernel's output block (128 batch rows) stays resident across the 128 points of the reduction axis. At a point the
  body loads the first seven channels of its two input blocks, and stores back the block it finds plus the point's
  partial sums; at the first point of the axis it first stores the zero block and reads that back. So the first point
  leaves `0 + partial` and every later point `previous + partial`, where `partial` is the body's arithmetic
  (`stepOf`) applied to the two loaded blocks. Both facts hold for any float values.
-/
import proofs.«143568_j51866025066625_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointValue

open Cert.KernelIdeal Cert.KernelIdeal.Gen

variable {F : FTy → Type} [FloatOps F]

theorem zeroOff1 : (![0] : Fin 1 → Nat) = fun _ => 0 := funext fun a => by fin_cases a; rfl

/-- The part of an input block the body reads: all 128 rows and 128 objects, the first seven of the eight channels. -/
abbrev firstSeven : Rect S128x128x8 :=
  Rect.unit (s := S128x128x8) ![0, 0, 0] S128x128x7.size inb_S128x128x8_S128x128x7_0_0_0

/-- The zero block the first point of the reduction axis stores. -/
abbrev zeroBlock : Vec F S128 .f32 := broadcast S128 (Scalar.ofBits .f32 0x00000000#32)

/-- One point's step: the block `acc` found in the buffer plus the partial sums of the squared differences of the two
    input blocks `x0`, `x1` over their first seven channels. -/
def stepOf (x0 x1 : Vec F S128x128x8 .f32) (acc : Vec F S128 .f32) : Vec F S128 .f32 :=
  k0_pay2 (View.ld x0 firstSeven) (View.ld x1 firstSeven) acc

/-- A later point of the reduction axis leaves the block it found, stepped. -/
theorem later_point (c : Dev nD) (i : grid0.Coords) (a2 : Memref sig .tc .vmem S128x128x8 .f32) (h2 : a2.IsWhole)
    (a3 : Memref sig .tc .vmem S128x128x8 .f32) (h3 : a3.IsWhole) (a4 : Memref sig .tc .vmem S128 .f32) (h4 : a4.IsWhole)
    (hc : ¬cond0_0 i) (x0 x1 : Vec F S128x128x8 .f32) (xo : Vec F S128 .f32) :
    out0_B_2 c i a2 h2 a3 h3 a4 h4 hc x0 x1 xo = stepOf x0 x1 xo := by
  unfold out0_B_2
  rw [View.read_writes_eq_canon _ _ _ (cover0_B_2 c i a2 h2 a3 h3 a4 h4 hc x0 x1 xo)]
  unfold kernelRun0_B
  dsimp only
  rw [View.canon_unit_zero zeroOff1]
  unfold stepOf
  simp only [View.readAt_eq_ld, h2.read_unread, h3.read_unread, h4.read_unread, View.ld_unit_zero (S := S128) zeroOff1]

/-- The first point of the reduction axis leaves the zero block, stepped. -/
theorem first_point (c : Dev nD) (i : grid0.Coords) (a2 : Memref sig .tc .vmem S128x128x8 .f32) (h2 : a2.IsWhole)
    (a3 : Memref sig .tc .vmem S128x128x8 .f32) (h3 : a3.IsWhole) (a4 : Memref sig .tc .vmem S128 .f32) (h4 : a4.IsWhole)
    (hc : cond0_0 i) (x0 x1 : Vec F S128x128x8 .f32) :
    out0_A_2 c i a2 h2 a3 h3 a4 h4 hc x0 x1 = stepOf x0 x1 zeroBlock := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S128) zeroOff1, View.readCov_unit_zero (S := S128) _ zeroOff1]
  unfold stepOf
  simp only [View.readAt_eq_ld, h2.read_unread, h3.read_unread]
  rfl

end Cert.KernelIdeal.PointValue

end
-- ==== Proof.LossSpec.lean ====
/-
  The label loss as one function of the two argument arrays, and the laws of finite sums that both programs' forms
  of it come down to.

  For `pred`, `gt` of shape [256, 16384, 8] the loss of batch row `b` is the sum, over the 16384 objects `n` and the
  first seven channels `c`, of `(pred[b,n,c] - gt[b,n,c])²`. The reference takes that sum in one reduction over both
  axes; the kernel takes it object block by object block (128 blocks of 128 objects), adding each block's partial sum
  into a running block. The two agree because addition of extended reals is commutative and associative: a finite sum
  may be regrouped and reordered freely, and neither distributivity nor cancellation — which fail at the infinities —
  is used. So no finiteness of the inputs is needed.
-/
import Idealize.ShloMosaic.PureOps.Ideal
import Idealize.ShloMosaic.Lib.ValueIdx

noncomputable section

open scoped BigOperators

namespace Cert.LabelLoss

open Idealize.ShloMosaic Idealize.ShloMosaic.ValueIdx

/-- An argument array: [256, 16384, 8] extended reals. -/
abbrev Arr := (⟨3, ![256, 16384, 8]⟩ : Shape).Idx → EReal

/-- The squared difference of two entries. -/
def sqDiff (x y : EReal) : EReal := (x - y) * (x - y)

/-- THE SPECIFICATION: batch row `b`'s loss, the sum over every object and the first seven channels of the squared
    difference of the two arrays' entries. -/
def loss (X Y : Arr) : (⟨1, ![256]⟩ : Shape).Idx → EReal :=
  fun i => ∑ n : Fin 16384, ∑ c : Fin 7, sqDiff (X (ix3 (i 0) n c.castSucc)) (Y (ix3 (i 0) n c.castSucc))

/-- REGROUPING THE OBJECT AXIS: a sum over the 16384 objects is the sum over the 128 object blocks of the sums over
    each block's 128 objects, object `128·s + q` being object `q` of block `s`. -/
theorem sum_object_blocks {M : Type*} [AddCommMonoid M] (f : Fin 16384 → M) :
    ∑ s : Fin 128, ∑ q : Fin 128, f ⟨128 * s.val + q.val, by have := s.isLt; have := q.isLt; omega⟩ = ∑ n : Fin 16384, f n := by
  rw [← Fintype.sum_prod_type (f := fun p : Fin 128 × Fin 128 =>
    f ⟨128 * p.1.val + p.2.val, by have := p.1.isLt; have := p.2.isLt; omega⟩)]
  refine Fintype.sum_equiv (finProdFinEquiv (m := 128) (n := 128)) _ _ fun p => congrArg f (Fin.ext ?_)
  show 128 * p.1.val + p.2.val = p.2.val + 128 * p.1.val
  omega

/-- The indices of a [256, 16384, 7] array that lie in batch row `b` are the pairs (object, channel): a sum over a set
    of indices whose members are exactly those of row `b` is the double sum over the two coordinates. -/
theorem sum_row {M : Type*} [AddCommMonoid M] (g : (⟨3, ![256, 16384, 7]⟩ : Shape).Idx → M) (b : Fin 256)
    (S : Finset (⟨3, ![256, 16384, 7]⟩ : Shape).Idx) (hS : ∀ i, i ∈ S ↔ (i 0).val = b.val) :
    ∑ i ∈ S, g i = ∑ n : Fin 16384, ∑ c : Fin 7, g (ix3 b n c) := by
  rw [← Fintype.sum_prod_type (f := fun q : Fin 16384 × Fin 7 => g (ix3 b q.1 q.2))]
  let e : Fin 16384 × Fin 7 ↪ (⟨3, ![256, 16384, 7]⟩ : Shape).Idx :=
    ⟨fun q => ix3 b q.1 q.2, fun q q' h => Prod.ext (congrFun h 1) (congrFun h 2)⟩
  have hset : S = Finset.univ.map e := by
    ext i
    rw [hS]
    simp only [Finset.mem_map, Finset.mem_univ, true_and]
    constructor
    · intro h0
      refine ⟨(i 1, i 2), ?_⟩
      show ix3 b (i 1) (i 2) = i
      funext a
      match a with
      | ⟨0, _⟩ => exact Fin.ext h0.symm
      | ⟨1, _⟩ => rfl
      | ⟨2, _⟩ => rfl
    · rintro ⟨q, rfl⟩
      rfl
  rw [hset, Finset.sum_map]
  rfl

end Cert.LabelLoss

end
-- ==== Proof.StepRow.lean ====
/-
  One point's step, read at a batch row, over the extended reals.

  At the exact values the body's two lane reductions are plain finite sums (their accumulator is the zero word, the
  sum's neutral element), a change of shape between equal shapes is the identity, and the squared difference is the
  product of the difference with itself. So the step adds to row `r` of the block it finds the sum, over the block's
  128 objects `q` and the first seven channels `c`, of the squared difference of the two input blocks' entries
  `(r, q, c)`. Reading a block through its first seven channels keeps the coordinates: channel `c` of the seven is
  channel `c` of the eight.
-/
import proofs.«143568_j51866025066625_2_alg».proof.Proof.PointValue
import proofs.«143568_j51866025066625_2_alg».proof.Proof.LossSpec
import Idealize.ShloMosaic.PureOps.Ideal.Laws
import Idealize.ShloMosaic.Lib.ValueIdx
import Idealize.ShloMosaic.Lib.Pipeline.Value

noncomputable section

open scoped BigOperators
open Idealize.ShloMosaic Idealize.ShloMosaic.TcCoe Idealize.SL.Sem Idealize.ShloMosaic.ValueIdx

namespace Cert.KernelIdeal.StepRow

open Cert.KernelIdeal Cert.KernelIdeal.Gen Cert.KernelIdeal.PointValue Cert.LabelLoss

/-- Entry (row `r`, object `q`, channel `c` of seven) of the loaded part of a block is entry (r, q, c) of the block. -/
theorem firstSeven_at (r q : Fin 128) (c : Fin 7) :
    firstSeven.idx (reduces_S128x128x7_S128x128.lift (reduces_S128x128_S128.lift (ix1 r) q) c) = ix3 r q c.castSucc := by
  funext a
  apply Fin.ext
  match a with
  | ⟨0, _⟩ => show 0 + 1 * r.val = r.val; omega
  | ⟨1, _⟩ => show 0 + 1 * q.val = q.val; omega
  | ⟨2, _⟩ => show 0 + 1 * c.val = c.val; omega

/-- THE STEP AT A ROW: the row found plus the block's sum of squared differences over its objects and seven channels. -/
theorem stepOf_row (x0 x1 : Vec Ideal S128x128x8 .f32) (acc : Vec Ideal S128 .f32) (r : Fin 128) :
    stepOf (F := Ideal) x0 x1 acc (ix1 r)
      = acc (ix1 r) + ∑ q : Fin 128, ∑ c : Fin 7, sqDiff (x0 (ix3 r q c.castSucc)) (x1 (ix3 r q c.castSucc)) := by
  unfold stepOf k0_pay2
  show (shapeCast S128 acc shapeCasts_S128_S128) (ix1 r)
      + multiReduction (F := Ideal) .add [1] S128 _ 0x00000000#32 reduces_S128x128_S128 (.inl rfl) rfl (ix1 r) = _
  refine congrArg₂ (· + ·) (congrFun (shapeCast_self acc _) _) ?_
  refine (Ideal.multiReduction_add_single _ _ reduces_S128x128_S128 (.inl rfl) rfl (ix1 r)).trans ?_
  refine Finset.sum_congr rfl fun q _ => ?_
  refine (Ideal.multiReduction_add_single _ _ reduces_S128x128x7_S128x128 (.inl rfl) rfl _).trans ?_
  refine Finset.sum_congr rfl fun c _ => ?_
  show (x0 (firstSeven.idx _) - x1 (firstSeven.idx _)) * (x0 (firstSeven.idx _) - x1 (firstSeven.idx _)) = _
  rw [firstSeven_at r q c]
  rfl

end Cert.KernelIdeal.StepRow

end
-- ==== Proof.BlockRead.lean ====
/-
  Where a grid point's blocks sit in their arrays.

  The grid is 2 × 128: point `t` is batch block `t / 128` at object block `t % 128`. Its two input blocks are rows
  `128·(t/128) …` and objects `128·(t%128) …` of `pred` and `gt`, all eight channels; its output block is rows
  `128·(t/128) …` of the result, whatever the object block. Read off the printed index maps, decided once over the grid.
-/
import proofs.«143568_j51866025066625_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.BlockRead

open Cert.KernelIdeal Cert.KernelIdeal.Gen

variable {F : FTy → Type} [FloatOps F]
variable (m : (ℓ : Loc nD τ sig) → Buf (Elt F) ℓ)

/-- The block indices at point `t`: (t/128, t%128, 0) for both inputs, t/128 for the output. -/
theorem block_index : ∀ t : Fin cfg0.N,
    win0_0.index t (0 : Fin 3) = t.val / 128 ∧ win0_0.index t (1 : Fin 3) = t.val % 128 ∧ win0_0.index t (2 : Fin 3) = 0
    ∧ win0_1.index t (0 : Fin 3) = t.val / 128 ∧ win0_1.index t (1 : Fin 3) = t.val % 128 ∧ win0_1.index t (2 : Fin 3) = 0
    ∧ win0_2.index t (0 : Fin 1) = t.val / 128 :=
  (by decide +kernel : ∀ t : Fin grid0.N, _)

theorem row_lt (t : Fin cfg0.N) (bb : ℕ) (hb : t.val / 128 = bb) (r : Fin 128) : 128 * bb + r.val < 256 := by
  have := t.isLt; have hN : cfg0.N = 256 := N_0; have := r.isLt; omega

theorem obj_lt (t : Fin cfg0.N) (s : ℕ) (hs : t.val % 128 = s) (q : Fin 128) : 128 * s + q.val < 16384 := by
  have := q.isLt; omega

/-- Entry (r, q, ch) of the first input's block at point `t` — batch block `bb`, object block `s` — is `pred` at
    (128·bb + r, 128·s + q, ch). -/
theorem pred_block_at (c : Dev nD) (t : Fin cfg0.N) (bb s : ℕ) (hb : t.val / 128 = bb) (hs : t.val % 128 = s)
    (r q : Fin 128) (ch : Fin 8) :
    (iblk m c 0 t : Vec F S128x128x8 .f32) (ix3 r q ch)
      = V m c main_arg0 (ix3 ⟨128 * bb + r.val, row_lt t bb hb r⟩ ⟨128 * s + q.val, obj_lt t s hs q⟩ ch) := by
  obtain ⟨e0, e1, e2, -⟩ := block_index t
  unfold iblk
  rw [View.read_apply]
  show V m c main_arg0 _ = V m c main_arg0 _
  congr 1
  funext a
  apply Fin.ext
  match a with
  | ⟨0, _⟩ => show win0_0.index t (0 : Fin 3) * 128 + 1 * r.val = 128 * bb + r.val; rw [e0]; omega
  | ⟨1, _⟩ => show win0_0.index t (1 : Fin 3) * 128 + 1 * q.val = 128 * s + q.val; rw [e1]; omega
  | ⟨2, _⟩ => show win0_0.index t (2 : Fin 3) * 8 + 1 * ch.val = ch.val; rw [e2]; omega

/-- Entry (r, q, ch) of the second input's block at point `t` is `gt` at the same place. -/
theorem gt_block_at (c : Dev nD) (t : Fin cfg0.N) (bb s : ℕ) (hb : t.val / 128 = bb) (hs : t.val % 128 = s)
    (r q : Fin 128) (ch : Fin 8) :
    (iblk m c 1 t : Vec F S128x128x8 .f32) (ix3 r q ch)
      = V m c main_arg1 (ix3 ⟨128 * bb + r.val, row_lt t bb hb r⟩ ⟨128 * s + q.val, obj_lt t s hs q⟩ ch) := by
  obtain ⟨-, -, -, e0, e1, e2, -⟩ := block_index t
  unfold iblk
  rw [View.read_apply]
  show V m c main_arg1 _ = V m c main_arg1 _
  congr 1
  funext a
  apply Fin.ext
  match a with
  | ⟨0, _⟩ => show win0_1.index t (0 : Fin 3) * 128 + 1 * r.val = 128 * bb + r.val; rw [e0]; omega
  | ⟨1, _⟩ => show win0_1.index t (1 : Fin 3) * 128 + 1 * q.val = 128 * s + q.val; rw [e1]; omega
  | ⟨2, _⟩ => show win0_1.index t (2 : Fin 3) * 8 + 1 * ch.val = ch.val; rw [e2]; omega

/-- Row `r` of the output's block at point `t` is row 128·(t/128) + r of the result. -/
theorem out_row_at (t : Fin cfg0.N) (j : S128.Idx) :
    ((cfg0.win 2).blk t).view.emb j = ix1 ⟨128 * (t.val / 128) + (j 0).val, row_lt t _ rfl (j 0)⟩ := by
  obtain ⟨-, -, -, -, -, -, e0⟩ := block_index t
  funext a
  apply Fin.ext
  match a with
  | ⟨0, _⟩ => show win0_2.index t (0 : Fin 1) * 128 + 1 * (j 0).val = 128 * (t.val / 128) + (j 0).val; rw [e0]; omega

end Cert.KernelIdeal.BlockRead

end
-- ==== Proof.RunningSum.lean ====
/-
  The output block after the last point of a batch block's reduction axis.

  Along the 128 points of a batch block the output's staging buffer is reset at the first (it leaves `0 + partial`) and
  stepped at each later one (`previous + partial`): a fold, which the library unrolls at a row into the zero plus the sum
  of the points' addends. Point `128·bb + s`'s addend at row `r` is the sum over the 128 objects of object block `s`
  and the seven channels of the squared differences of `pred` and `gt` at row `128·bb + r`; summing the 128 addends
  regroups the sum over all 16384 objects. So after the last point row `r` of the block is the loss of row `128·bb + r`.
-/
import proofs.«143568_j51866025066625_2_alg».proof.Proof.PointValue
import proofs.«143568_j51866025066625_2_alg».proof.Proof.StepRow
import proofs.«143568_j51866025066625_2_alg».proof.Proof.BlockRead
import proofs.«143568_j51866025066625_2_alg».proof.Proof.LossSpec
import Idealize.ShloMosaic.PureOps.Ideal.Laws
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.RunningSum

open Cert.KernelIdeal Cert.KernelIdeal.Gen Cert.KernelIdeal.PointValue Cert.KernelIdeal.StepRow Cert.KernelIdeal.BlockRead
open Cert.LabelLoss

variable (m : (ℓ : Loc nD τ sig) → Buf (Elt Ideal) ℓ)

/-- The step at any row of the block (every row index is `ix1` of its coordinate). -/
theorem stepOf_at (x0 x1 : Vec Ideal S128x128x8 .f32) (acc : Vec Ideal S128 .f32) (j : S128.Idx) :
    stepOf (F := Ideal) x0 x1 acc j
      = acc j + ∑ q : Fin 128, ∑ ch : Fin 7, sqDiff (x0 (ix3 (j 0) q ch.castSucc)) (x1 (ix3 (j 0) q ch.castSucc)) := by
  obtain ⟨r, rfl⟩ : ∃ r : Fin 128, j = ix1 r := ⟨j 0, eq_ix1 j⟩
  exact stepOf_row x0 x1 acc r

/-- Point `n`'s addend at row `j` of the block: the point's two input blocks' squared differences summed over the
    block's objects and the seven channels (zero past the grid, where it is never read). -/
def addend (c : Dev nD) (n : ℕ) (j : S128.Idx) : EReal :=
  if h : n < cfg0.N then
    ∑ q : Fin 128, ∑ ch : Fin 7,
      sqDiff ((iblk m c 0 ⟨n, h⟩ : Vec Ideal S128x128x8 .f32) (ix3 (j 0) q ch.castSucc))
        ((iblk m c 1 ⟨n, h⟩ : Vec Ideal S128x128x8 .f32) (ix3 (j 0) q ch.castSucc))
  else 0

/-- What the first point of a reduction axis leaves, and how a later point steps what it finds. -/
def resetAt (c : Dev nD) (n : ℕ) (h : n < cfg0.N) : Vec Ideal S128 .f32 :=
  stepOf (iblk m c 0 ⟨n, h⟩) (iblk m c 1 ⟨n, h⟩) zeroBlock
def stepAt (c : Dev nD) (n : ℕ) (h : n < cfg0.N) (acc : Vec Ideal S128 .f32) : Vec Ideal S128 .f32 :=
  stepOf (iblk m c 0 ⟨n, h⟩) (iblk m c 1 ⟨n, h⟩) acc

theorem outs_reset (c : Dev nD) (n : ℕ) (h : n < cfg0.N) (hn : n % 128 = 0) : outsAt0 m c n h = resetAt m c n h :=
  (outsAt0_A m c ⟨n, h⟩ hn).trans
    (first_point c (grid0.coords ⟨n, h⟩) (ms0_0 ⟨n, h⟩) (hs0_0 ⟨n, h⟩) (ms0_1 ⟨n, h⟩) (hs0_1 ⟨n, h⟩) (ms0_2 ⟨n, h⟩)
      (hs0_2 ⟨n, h⟩) ((hcond0_0 ⟨n, h⟩).mpr hn) (iblk m c 0 ⟨n, h⟩) (iblk m c 1 ⟨n, h⟩))

theorem outs_step (c : Dev nD) (n : ℕ) (h : n + 1 < cfg0.N) (hn : ¬(n + 1) % 128 = 0) :
    outsAt0 m c (n + 1) h = stepAt m c (n + 1) h (outsAt0 m c n (Nat.lt_of_succ_lt h)) :=
  (outsAt0_B m c ⟨n + 1, h⟩ hn).trans
    (later_point c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (fun hh => hn ((hcond0_0 ⟨n + 1, h⟩).mp hh)) (iblk m c 0 ⟨n + 1, h⟩)
      (iblk m c 1 ⟨n + 1, h⟩) (outsAt0 m c n (Nat.lt_of_succ_lt h)))

/-- THE FOLD: at any point the buffer holds its batch block's fold from the block's first point up to it. -/
theorem outs_fold (c : Dev nD) (t : ℕ) (ht : t < cfg0.N) (h' : 128 * (t / 128) + t % 128 < cfg0.N) :
    outsAt0 m c t ht = Pipeline.accAt (resetAt m c) (stepAt m c) (128 * (t / 128)) (t % 128) h' :=
  Pipeline.eq_accAt_of_mod (fun n h => outsAt0 m c n h) 128 (resetAt m c) (stepAt m c) (outs_reset m c) (outs_step m c)
    (by decide) t ht h'

/-- The fold at a row: the zero plus the addends of the points so far. -/
theorem fold_at (c : Dev nD) (b j : ℕ) (hj : j ≤ 127) (h : b + j < cfg0.N) (i : S128.Idx) :
    Pipeline.accAt (resetAt m c) (stepAt m c) b j h i
      = (zeroBlock : Vec Ideal S128 .f32) i + ∑ s ∈ Finset.range (j + 1), addend m c (b + s) i :=
  Pipeline.accAt_add_apply (resetAt m c) (stepAt m c) (zeroBlock : Vec Ideal S128 .f32) (addend m c) b 127
    (fun hb i => (stepOf_at _ _ _ i).trans (by rw [addend, dif_pos hb]))
    (fun n hn acc i _ _ => (stepOf_at _ _ acc i).trans (by rw [addend, dif_pos hn]))
    j hj h i

/-- After the last point of a batch block, a row of the buffer is the sum of the block's 128 addends. -/
theorem last_point_row (c : Dev nD) (t : Fin cfg0.N) (hf : t.val % 128 = 127) (i : S128.Idx) :
    outsAt0 m c t.val t.isLt i = ∑ s : Fin 128, addend m c (128 * (t.val / 128) + s.val) i := by
  have h' : 128 * (t.val / 128) + t.val % 128 < cfg0.N := by rw [Nat.div_add_mod]; exact t.isLt
  rw [outs_fold m c t.val t.isLt h', fold_at m c _ _ (by omega) h' i, hf, Finset.sum_range]
  show Ideal.ofBits .f32 0x00000000#32 + _ = _
  rw [Ideal.ofBits_zero_f32, zero_add]

/-- THE LAST POINT'S ROW IS THE LOSS: row `r` of the buffer after the last point of batch block `bb` is the loss of row
    `128·bb + r` of the two arrays. -/
theorem last_point_loss (c : Dev nD) (t : Fin cfg0.N) (hf : t.val % 128 = 127) (i : S128.Idx) :
    outsAt0 m c t.val t.isLt i
      = loss (V m c main_arg0) (V m c main_arg1) (ix1 ⟨128 * (t.val / 128) + (i 0).val, row_lt t _ rfl (i 0)⟩) := by
  rw [last_point_row m c t hf i]
  refine Eq.trans ?_ (sum_object_blocks fun n => ∑ ch : Fin 7,
    sqDiff (V m c main_arg0 (ix3 ⟨128 * (t.val / 128) + (i 0).val, row_lt t _ rfl (i 0)⟩ n ch.castSucc))
      (V m c main_arg1 (ix3 ⟨128 * (t.val / 128) + (i 0).val, row_lt t _ rfl (i 0)⟩ n ch.castSucc)))
  refine Finset.sum_congr rfl fun s _ => ?_
  have hN : cfg0.N = 256 := N_0
  have hs : 128 * (t.val / 128) + s.val < cfg0.N := by have := t.isLt; have := s.isLt; omega
  have hb : (⟨128 * (t.val / 128) + s.val, hs⟩ : Fin cfg0.N).val / 128 = t.val / 128 := by
    show (128 * (t.val / 128) + s.val) / 128 = t.val / 128; have := s.isLt; omega
  have hm : (⟨128 * (t.val / 128) + s.val, hs⟩ : Fin cfg0.N).val % 128 = s.val := by
    show (128 * (t.val / 128) + s.val) % 128 = s.val; have := s.isLt; omega
  rw [addend, dif_pos hs]
  refine Finset.sum_congr rfl fun q _ => Finset.sum_congr rfl fun ch _ => ?_
  rw [pred_block_at m c ⟨_, hs⟩ (t.val / 128) s.val hb hm (i 0) q ch.castSucc,
    gt_block_at m c ⟨_, hs⟩ (t.val / 128) s.val hb hm (i 0) q ch.castSucc]

end Cert.KernelIdeal.RunningSum

end
-- ==== Proof.FinalArray.lean ====
/-
  The result array after the run, and the kernel's run read as the specification.

  The output's block is written back once per batch block, after the last point of its reduction axis; what is written
  is the buffer's contents, whose row `r` is the loss of row `128·bb + r`, and the block sits at rows `128·bb …` of the
  result. So each write-back writes the loss read through its block, the two blocks cover the 256 rows, and the array
  ends holding the loss of every row.
-/
import proofs.«143568_j51866025066625_2_alg».proof.Proof.RunningSum
import proofs.«143568_j51866025066625_2_alg».proof.Proof.Gen.KernelIdeal.Value
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.FinalArray

open Cert.KernelIdeal Cert.KernelIdeal.Gen Cert.KernelIdeal.BlockRead Cert.KernelIdeal.RunningSum Cert.LabelLoss

variable (m : (ℓ : Loc nD τ sig) → Buf (Elt Ideal) ℓ) (ρ : Dev nD → PrngReg)

/-- Any contents `G` of the result array read through point `t`'s block: entry `j` of the block is `G` at the block's
    `j`-th row of the array. (Stated for an arbitrary `G`, so that reading the block never opens a particular one.) -/
theorem read_out_block (c : Dev nD) (G : Buf (Elt Ideal) ((c : Thread nD τ).loc main_v0)) (t : Fin cfg0.N)
    (j : ((cfg0.win 2).xblock (grid0.coords t)).Idx) :
    ((cfg0.win 2).blk t).view.read (Elt Ideal) G j = G (((cfg0.win 2).blk t).view.emb j) := by
  rw [View.read_apply]
  rfl

/-- What a write-back writes is the loss of the two arrays read through the point's block. -/
theorem flushed_is_loss (c : Dev nD) (t : Fin cfg0.N) (hf : (cfg0.win 2).flush t = true) :
    (dats m 0 c).flushed 2 t = ((cfg0.win 2).blk t).view.read (Elt Ideal) (loss (V m c main_arg0) (V m c main_arg1)) := by
  have h127 : t.val % 128 = 127 := (flush0_2 t).mp hf
  rw [Cert.KernelIdeal.Value.flushed2]
  funext j
  rw [read_out_block c _ t j, out_row_at t j]
  exact last_point_loss m c t h127 j

/-- A row of the result lies in point `t`'s block iff it is one of the 128 rows from 128 times the block's index. -/
theorem mem_out_block (t : Fin cfg0.N) (i : S256.Idx) :
    i ∈ ((cfg0.win 2).blk t).view.set
      ↔ ∀ a : Fin 1, win0_2.index t a * S128.size a ≤ (i a).val ∧ (i a).val < win0_2.index t a * S128.size a + S128.size a := by
  show i ∈ ((View.whole main_v0).slice (win0_2.rect t)).set ↔ _
  rw [View.set_slice_whole, Rect.mem_set_unit]
  exact Iff.rfl

/-- Every row of the result is written back: row `b` by the last point of batch block `b / 128`. -/
theorem covered (i : S256.Idx) : ∃ t : Fin cfg0.N, (cfg0.win 2).flush t = true ∧ i ∈ ((cfg0.win 2).blk t).view.set := by
  have hi : (i 0).val < 256 := (i 0).isLt
  have hN : cfg0.N = 256 := N_0
  have ht : 128 * ((i 0).val / 128) + 127 < cfg0.N := by omega
  refine ⟨⟨128 * ((i 0).val / 128) + 127, ht⟩, (flush0_2 _).mpr (by show (128 * ((i 0).val / 128) + 127) % 128 = 127; omega), ?_⟩
  rw [mem_out_block]
  have e0 : win0_2.index ⟨128 * ((i 0).val / 128) + 127, ht⟩ (0 : Fin 1) = (128 * ((i 0).val / 128) + 127) / 128 :=
    (block_index ⟨128 * ((i 0).val / 128) + 127, ht⟩).2.2.2.2.2.2
  intro a
  match a with
  | ⟨0, _⟩ =>
    show win0_2.index ⟨128 * ((i 0).val / 128) + 127, ht⟩ (0 : Fin 1) * 128 ≤ (i 0).val
      ∧ (i 0).val < win0_2.index ⟨128 * ((i 0).val / 128) + 127, ht⟩ (0 : Fin 1) * 128 + 128
    rw [e0]; omega

/-- THE RESULT ARRAY after the run is the loss of the two argument arrays. -/
theorem final_is_loss (c : Dev nD) : (dats m 0 c).arrAt 2 cfg0.N = loss (V m c main_arg0) (V m c main_arg1) :=
  (dats m 0 c).arrAt_eq_of_cover 2 (loss (V m c main_arg0) (V m c main_arg1)) (flushed_is_loss m c) covered

/-- The kernel's run, read: every weakly fair execution terminates with the result at the loss of the argument arrays as
    launched, the arguments unchanged. -/
theorem run : θ_run defs (onTc (τ := τ) (main (F := Ideal))) ⟨m, fun _ => 0, ρ⟩ fun r => ∀ c : Dev nD,
      r.2.mem ((c : Thread nD τ).loc main_v0)
        = loss (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_is_loss m c), (h c).2⟩)
    (Cert.KernelIdeal.Value.run_blocks m ρ)

end Cert.KernelIdeal.FinalArray

end
-- ==== Proof.RefLoss.lean ====
/-
  The reference computes the specification.

  The host program slices the first seven channels of both arrays, subtracts, squares, and reduces with `add` over the
  object and channel axes from the zero word. At the exact values that reduce is the zero plus the sum over every index
  of the [256, 16384, 7] array whose row coordinate is the result's; those indices are the pairs (object, channel), and
  channel `c` of the slice is channel `c` of the array. So row `b` of the result is the loss of row `b`.
-/
import proofs.«143568_j51866025066625_2_alg».proof.Proof.Gen.ReferenceIdeal.Read
import proofs.«143568_j51866025066625_2_alg».proof.Proof.LossSpec
import Idealize.ShloMosaic.PureOps.Ideal.Laws
import Idealize.ShloMosaic.PureOps.Reduce
import Idealize.ShloMosaic.Lib.ValueIdx

noncomputable section

open scoped BigOperators
open Idealize.ShloMosaic Idealize.ShloMosaic.TcCoe Idealize.SL.Sem Idealize.ShloMosaic.ValueIdx

namespace Cert.ReferenceIdeal.RefLoss

open Cert.ReferenceIdeal Cert.ReferenceIdeal.Gen Cert.ReferenceIdeal.Read Cert.LabelLoss

/-- An index of the squared differences reduces into result row `i` exactly when its row coordinate is `i`'s. -/
theorem drops_to_iff (i : S256.Idx) (i' : S256x16384x7.Idx) :
    reducesTo_S256x16384x7_S256_d1_2.drop i' = i ↔ (i' 0).val = (i 0).val := by
  constructor
  · intro h
    exact (Shape.ReducesTo.drop_apply_val_of_eq reducesTo_S256x16384x7_S256_d1_2 i' 0 0).symm.trans
      (congrArg (fun j : S256.Idx => (j 0).val) h)
  · intro h
    funext b
    apply Fin.ext
    match b with
    | ⟨0, _⟩ => exact (Shape.ReducesTo.drop_apply_val_of_eq reducesTo_S256x16384x7_S256_d1_2 i' 0 0).trans h

/-- Channel `c` of the seven-channel slice is channel `c` of the eight. -/
theorem slice_index (b : Fin 256) (n : Fin 16384) (c : Fin 7) :
    idx_main_v0 (ix3 b n c) = ix3 b n c.castSucc ∧ idx_main_v1 (ix3 b n c) = ix3 b n c.castSucc :=
  ⟨funext fun a => match a with | ⟨0, _⟩ => rfl | ⟨1, _⟩ => rfl | ⟨2, _⟩ => rfl,
   funext fun a => match a with | ⟨0, _⟩ => rfl | ⟨1, _⟩ => rfl | ⟨2, _⟩ => rfl⟩

/-- THE REFERENCE IS THE SPECIFICATION: its result, as a function of the two arrays, is the loss. -/
theorem reference_is_loss (X Y : (⟨S256x16384x8, .f32⟩ : BufTy).Contents (Elt Ideal)) :
    val_main_v4 (F := Ideal) X Y = loss X Y := by
  funext i
  unfold val_main_v4
  show Ideal.hostReduceAdd _ _ _ i = _
  unfold Ideal.hostReduceAdd
  refine (congrArg (_ + ·) (sum_row _ (i 0) _ fun i' => ?_)).trans ?_
  · rw [Finset.mem_filter]
    exact ⟨fun h => (drops_to_iff i i').mp h.2, fun h => ⟨Finset.mem_univ _, (drops_to_iff i i').mpr h⟩⟩
  show Ideal.ofBits .f32 0x00000000#32 + _ = _
  rw [Ideal.ofBits_zero_f32, zero_add]
  refine Finset.sum_congr rfl fun n _ => Finset.sum_congr rfl fun c _ => ?_
  rw [val_main_v3_apply, val_main_v2_apply, val_main_v0_apply, val_main_v1_apply, (slice_index (i 0) n c).1,
    (slice_index (i 0) n c).2]
  rfl

end Cert.ReferenceIdeal.RefLoss

end
-- ==== Proof.lean ====
/-
  The certificate of the label-loss kernel against its jnp reference.

  `out[b] = Σ_{n, c < 7} (pred[b,n,c] - gt[b,n,c])²` over pred, gt : f32[256, 16384, 8]. The kernel tiles the batch into two
  blocks of 128 rows and the objects into 128 blocks of 128, keeps a batch block's output resident across its object
  blocks, zeroes it at the first and adds each block's partial sums (a sum over channels, then over the block's objects);
  the reference slices the seven channels and reduces over objects and channels at once. Over the extended reals both
  are the same finite sum of the same terms, differently grouped, and addition there is commutative and associative: the
  two results are equal for every input, and the precondition is not used.

  The three frames are the generated ones (the reference's is its generated run with the result dropped); the ideal pass
  rewrote nothing, so the preservation claim is trivial; the value claim joins the kernel's run read as the
  specification (`FinalArray.run`) with the reference's run read as the same specification (`RefLoss.reference_is_loss`).
-/
import proofs.«143568_j51866025066625_2_alg».proof.Defs
import proofs.«143568_j51866025066625_2_alg».proof.Proof.Gen.Kernel
import proofs.«143568_j51866025066625_2_alg».proof.Proof.Gen.Kernel.Skeleton
import proofs.«143568_j51866025066625_2_alg».proof.Proof.Gen.Kernel.Launch
import proofs.«143568_j51866025066625_2_alg».proof.Proof.Gen.Kernel.Points
import proofs.«143568_j51866025066625_2_alg».proof.Proof.Gen.Kernel.Frame
import proofs.«143568_j51866025066625_2_alg».proof.Proof.Gen.KernelIdeal
import proofs.«143568_j51866025066625_2_alg».proof.Proof.Gen.KernelIdeal.Skeleton
import proofs.«143568_j51866025066625_2_alg».proof.Proof.Gen.KernelIdeal.Launch
import proofs.«143568_j51866025066625_2_alg».proof.Proof.Gen.KernelIdeal.Points
import proofs.«143568_j51866025066625_2_alg».proof.Proof.Gen.KernelIdeal.Frame
import proofs.«143568_j51866025066625_2_alg».proof.Proof.Gen.ReferenceIdeal
import proofs.«143568_j51866025066625_2_alg».proof.Proof.Gen.Pre_finite_inputs
import proofs.«143568_j51866025066625_2_alg».proof.Proof.Gen.KernelIdeal.Value
import proofs.«143568_j51866025066625_2_alg».proof.Proof.Gen.ReferenceIdeal.Run
import proofs.«143568_j51866025066625_2_alg».proof.Proof.Gen.ReferenceIdeal.Read
import proofs.«143568_j51866025066625_2_alg».proof.Proof.FinalArray
import proofs.«143568_j51866025066625_2_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- At the exact values both programs, run from memories that agree on `pred` and `gt`, end with the loss of those two
    arrays in their result. -/
theorem algebraic : Cert.algebraic_KernelIdeal_ReferenceIdeal := by
  intro m ρ m' ρ' _ hagree
  refine ⟨fun c => Cert.LabelLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.FinalArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefLoss.reference_is_loss, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
